-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S512x4096 : Shape := ⟨2, ![512, 4096]⟩
abbrev S512x1 : Shape := ⟨2, ![512, 1]⟩

abbrev nBuf : Space → Nat
  | .hbm => 12
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x1, .i32⟩
  | .local _ .vmem, ⟨3, _⟩ => ⟨S512x1, .i32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16384 : S_.BroadcastsInDim S16384 (![] : Fin 0 → Fin S16384.rank)
  shapeCasts_S16384_S16384x1 : S16384.ShapeCasts S16384x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x4096_d1_w32 : S512x4096.Iotas .tc 32 [1]
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16384x4096 : Shape := ⟨2, ![16384, 4096]⟩
abbrev S16384 : Shape := ⟨1, ![16384]⟩
abbrev S4096 : Shape := ⟨1, ![4096]⟩
abbrev S16384x1 : Shape := ⟨2, ![16384, 1]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S4096, .i32⟩
  | .hbm, ⟨3, _⟩ => ⟨S16384x1, .i32⟩
  | .hbm, ⟨4, _⟩ => ⟨S1x4096, .i32⟩
  | .hbm, ⟨5, _⟩ => ⟨S16384x4096, .i32⟩
  | .hbm, ⟨6, _⟩ => ⟨S16384x4096, .i32⟩
  | .hbm, ⟨7, _⟩ => ⟨S16384x4096, .i1⟩
  | .hbm, ⟨8, _⟩ => ⟨S_, .f32⟩
  | .hbm, ⟨9, _⟩ => ⟨S16384x4096, .f32⟩
  | .hbm, ⟨10, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)

variable [Facts₀]

class Facts : Prop extends Facts₀ where

variable [Facts]
-- ==== Proof.MaskSpec.lean ====
/-
  The specification both programs are compared with: the row-masked copy of a 16384 × 4096 array.

  Given the array `x` and one signed 32-bit word `p r` per row, entry `(r, j)` of the result is `x (r, j)` when the
  column number `j`, as a signed word, is below `p r`, and the float zero otherwise — row `r` keeps its first `p r`
  entries and is zero from there on. The function does no float arithmetic: it only chooses between an entry of
  `x` and the zero pattern, so it is stated for every reading of the float values.
-/
import Idealize.ShloMosaic.Lib.ValueIdx

noncomputable section

namespace Cert.MaskSpec

open Idealize.ShloMosaic Idealize.ShloMosaic.ValueIdx

variable {F : FTy → Type} [FloatOps F]

/-- Entry `(r, j)` is `x (r, j)` if `j < p r` (signed words), else zero. -/
def maskedRows (x : (⟨2, ![16384, 4096]⟩ : Shape).Idx → Elt F .f32) (p : (⟨1, ![16384]⟩ : Shape).Idx → BitVec 32) :
    (⟨2, ![16384, 4096]⟩ : Shape).Idx → Elt F .f32 :=
  fun i => Scalar.select (IntOp.cmpi .slt (BitVec.ofNat 32 (i 1).val) (p (ix1 (i 0)))) (x i)
    (FloatOps.ofBits .f32 0x00000000#32)

/-- The specification at an index given by its coordinates. -/
theorem maskedRows_ix2 (x : (⟨2, ![16384, 4096]⟩ : Shape).Idx → Elt F .f32) (p : (⟨1, ![16384]⟩ : Shape).Idx → BitVec 32)
    (r : Fin 16384) (j : Fin 4096) :
    maskedRows x p (ix2 r j) = Scalar.select (IntOp.cmpi .slt (BitVec.ofNat 32 j.val) (p (ix1 r))) (x (ix2 r j))
      (FloatOps.ofBits .f32 0x00000000#32) := rfl

end Cert.MaskSpec

end
-- ==== Proof.RefMasked.lean ====
/-
  The reference computes the specification.

  The reference builds the column numbers `0 … 4095` as a row, repeats that row down the 16384 rows, repeats each
  row's word `p r` across its 4096 columns, compares the two signed, and selects between the array and a zero
  filled array. Read at one entry `(r, j)`, every repeat reads its operand at the evident coordinate, so the entry is
  `x (r, j)` if `j < p r` and zero otherwise: the specification `maskedRows`, with nothing to prove beyond
  identifying the composed coordinate maps.
-/
import proofs.«103761_j46308337386065_2_alg».proof.Proof.Gen.ReferenceIdeal.Read
import proofs.«103761_j46308337386065_2_alg».proof.Proof.MaskSpec

noncomputable section

namespace Cert.ReferenceIdeal.RefValue

open Cert.ReferenceIdeal Cert.ReferenceIdeal.Read Idealize.ShloMosaic Idealize.ShloMosaic.ValueIdx Cert.MaskSpec

variable {F : FTy → Type} [FloatOps F]

/-- The word repeated across row `i 0` is read at that row. -/
theorem row_of (i : S16384x4096.Idx) : idx_main_v1 (idx_main_v4 i) = ix1 (i 0) :=
  funext fun a => match a with | ⟨0, _⟩ => rfl

/-- The column number repeated down column `i 1` is that column's number. -/
theorem col_of (i : S16384x4096.Idx) : ((idx_main_v2 (idx_main_v3 i)) 0).val = (i 1).val := rfl

/-- The reference's result, as a function of its two arguments, is the row-masked copy. -/
theorem ref_is_masked (x0 : (⟨S16384x4096, .f32⟩ : BufTy).Contents (Elt F)) (x1 : (⟨S16384, .i32⟩ : BufTy).Contents (Elt F)) :
    val_main_v6 (F := F) x0 x1 = maskedRows x0 x1 := by
  funext i
  rw [val_main_v6_apply, val_main_v5_apply, val_main_v3_apply, val_main_v2_apply, val_main_v0_apply,
    val_main_v4_apply, val_main_v1_apply, val_main_call0_v0_apply, val_main_cst_apply, row_of, col_of]
  rfl

end Cert.ReferenceIdeal.RefValue

end
-- ==== Proof.ClipLaw.lean ====
/-
  The one arithmetic fact of this certificate, about 32-bit words read as signed integers.

  A column number `j` of a row of 4096 entries satisfies `0 ≤ j < 4096`. Clamping a signed word `p` into
  `[0, 4096]` (first `max 0 p`, then `min 4096 ·`) cannot change the truth of `j < p`:
    * if `p < 0` the clamp is `0`, and `j < 0` and `j < p` are both false;
    * if `0 ≤ p ≤ 4096` the clamp is `p` itself;
    * if `4096 < p` the clamp is `4096`, and `j < 4096` and `j < p` are both true.
  The words are compared through their signed readings (`BitVec.toInt`), each expressed through the unsigned
  reading so that linear arithmetic decides every case.
-/
import Idealize.ShloMosaic.PureOps.Ideal

namespace Cert.ClipLaw

open Idealize.ShloMosaic

/-- The signed reading of the word `0`. -/
theorem toInt_zero32 : (0#32 : BitVec 32).toInt = 0 := by decide
/-- The signed reading of the word `4096`. -/
theorem toInt_4096 : (4096#32 : BitVec 32).toInt = 4096 := by decide

/-- A column number below 4096, as a 32-bit word, reads back as itself when signed. -/
theorem toInt_col (j : Nat) (hj : j < 4096) : (BitVec.ofNat 32 j).toInt = (j : Int) := by
  rw [BitVec.toInt_eq_toNat_cond, BitVec.toNat_ofNat]
  split <;> omega

/-- `max 0 p` on signed words: `0` when `p` is negative. -/
theorem maxsi_zero_of_neg (p : BitVec 32) (h : p.toInt < 0) : IntOp.maxsi 0#32 p = 0#32 := by
  unfold IntOp.maxsi
  rw [if_pos]
  rw [BitVec.slt_eq_decide, toInt_zero32]
  exact decide_eq_true h

/-- `max 0 p` on signed words: `p` when `p` is not negative. -/
theorem maxsi_zero_of_nonneg (p : BitVec 32) (h : ¬ p.toInt < 0) : IntOp.maxsi 0#32 p = p := by
  unfold IntOp.maxsi
  rw [if_neg]
  rw [BitVec.slt_eq_decide, toInt_zero32]
  exact fun hd => h (of_decide_eq_true hd)

/-- `min 4096 q` on signed words: `4096` when `q` exceeds it. -/
theorem minsi_4096_of_gt (q : BitVec 32) (h : 4096 < q.toInt) : IntOp.minsi 4096#32 q = 4096#32 := by
  unfold IntOp.minsi
  rw [if_pos]
  rw [BitVec.slt_eq_decide, toInt_4096]
  exact decide_eq_true h

/-- `min 4096 q` on signed words: `q` when `q` does not exceed it. -/
theorem minsi_4096_of_le (q : BitVec 32) (h : ¬ 4096 < q.toInt) : IntOp.minsi 4096#32 q = q := by
  unfold IntOp.minsi
  rw [if_neg]
  rw [BitVec.slt_eq_decide, toInt_4096]
  exact fun hd => h (of_decide_eq_true hd)

/-- The signed comparison `a < b` of two words as a one-bit word, from the truth of the integer comparison. -/
theorem cmpi_slt_of (a b c : BitVec 32) (h : a.toInt < b.toInt ↔ a.toInt < c.toInt) :
    IntOp.cmpi .slt a b = IntOp.cmpi .slt a c := by
  unfold IntOp.cmpi
  show BitVec.ofBool (a.slt b) = BitVec.ofBool (a.slt c)
  rw [BitVec.slt_eq_decide, BitVec.slt_eq_decide, decide_eq_decide.mpr h]

/-- THE LAW: for a column number `j < 4096`, `j < clamp(p, 0, 4096)` exactly when `j < p`, as signed 32-bit words. -/
theorem slt_clip (j : Nat) (hj : j < 4096) (p : BitVec 32) :
    IntOp.cmpi .slt (BitVec.ofNat 32 j) (IntOp.minsi 4096#32 (IntOp.maxsi 0#32 p))
      = IntOp.cmpi .slt (BitVec.ofNat 32 j) p := by
  apply cmpi_slt_of
  rw [toInt_col j hj]
  by_cases hneg : p.toInt < 0
  · rw [maxsi_zero_of_neg p hneg, minsi_4096_of_le 0#32 (by rw [toInt_zero32]; omega), toInt_zero32]
    omega
  · rw [maxsi_zero_of_nonneg p hneg]
    by_cases hbig : 4096 < p.toInt
    · rw [minsi_4096_of_gt p hbig, toInt_4096]
      omega
    · rw [minsi_4096_of_le p hbig]

end Cert.ClipLaw
-- ==== Proof.PosClip.lean ====
/-
  What the kernel is launched on: the clamped row words.

  Before the kernel's region the program clamps every row's word into `[0, 4096]` — `max` with a row of zeros, then
  `min` with a row of 4096s, both on signed words — and re-lays the 16384 clamped words as a 16384 × 1 column. Read
  at row `r` (column 0 of the column array has the same row-major position as entry `r` of the row), the region finds
  `min 4096 (max 0 (p r))` where `p` is the second argument as launched.
-/
import proofs.«103761_j46308337386065_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Clamp

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The column array the region finds: the clamped words, re-laid from a row of 16384 to a 16384 × 1 column. -/
theorem column_eq (c : Dev nD) : (V m c main_v1 : S16384x1.Idx → BitVec 32) =
    shapeCast S16384x1
      (minsi (broadcastInDim S16384 ![] bcast_S_S16384 (constantI S_ 32 4096#32))
        (maxsi (broadcastInDim S16384 ![] bcast_S_S16384 (constantI S_ 32 0#32))
          (m ((c : Thread nD τ).loc main_arg1) : S16384.Idx → BitVec 32)))
      shapeCasts_S16384_S16384x1 := by
  dsimp only [Gen.V]
  simp only [Gen.hostOps0, Gen.hostOps0_1, Gen.hostOps0_2, List.flatten_cons, List.flatten_nil, List.append_nil,
    List.cons_append, List.nil_append]
  after_results
  rfl

/-- Row `r` of the column array is the clamp of row `r`'s word. -/
theorem column_apply (c : Dev nD) (r : Fin 16384) :
    (V m c main_v1 : S16384x1.Idx → BitVec 32) (ix2 r (0 : Fin 1))
      = IntOp.minsi 4096#32 (IntOp.maxsi 0#32 ((m ((c : Thread nD τ).loc main_arg1) : S16384.Idx → BitVec 32) (ix1 r))) := by
  rw [column_eq]
  refine (shapeCast_apply _ shapeCasts_S16384_S16384x1 (ix2 r (0 : Fin 1)) (ix1 r) ?_).trans rfl
  rw [Shape.rowMajor_val_one, Shape.rowMajor_val_two]
  show r.val = r.val * 1 + 0
  omega

end Cert.KernelIdeal.Clamp

end
-- ==== Proof.BlockValue.lean ====
/-
  What the kernel body stores, entry by entry.

  At one grid point the body holds a 512 × 4096 block `x` of the array and the 512 × 1 column `q` of that block's row
  words. It forms the column numbers along axis 1, repeats each row's word across the row, compares signed, and
  selects between `x` and zero. At entry `(a, b)` of the block: `x (a, b)` if `b < q a`, zero otherwise.
-/
import proofs.«103761_j46308337386065_2_alg».proof.Proof.Gen.KernelIdeal.Skeleton
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- A 512 × 1 column repeated across 4096 columns reads, at `(a, b)`, the column's entry of row `a`. -/
theorem repeat_apply (q : IVec S512x1 32) (a : Fin 512) (b : Fin 4096) :
    broadcastTo S512x4096 q broadcasts_S512x1_S512x4096 (ix2 a b) = q (ix2 a (0 : Fin 1)) := by
  refine broadcastTo_apply q broadcasts_S512x1_S512x4096 (ix2 a b) (ix2 a (0 : Fin 1)) (fun d => ?_)
  match d with
  | ⟨0, _⟩ => show a.val = if (512 : Nat) = 1 then 0 else a.val; rw [if_neg (by decide)]
  | ⟨1, _⟩ => show 0 = if (1 : Nat) = 1 then 0 else b.val; rw [if_pos rfl]

/-- The stored value at `(a, b)`: the block's entry where the column number is below the row's word, else zero. -/
theorem stored_apply (q : Vec F S512x1 .i32) (x : Vec F S512x4096 .f32) (a : Fin 512) (b : Fin 4096) :
    k0_pay1 q x (ix2 a b)
      = Scalar.select (IntOp.cmpi .slt (BitVec.ofNat 32 b.val) (q (ix2 a (0 : Fin 1)))) (x (ix2 a b))
          (FloatOps.ofBits .f32 0x00000000#32) := by
  unfold k0_pay1
  show Scalar.select (IntOp.cmpi .slt (iota .tc S512x4096 32 [1] iota_S512x4096_d1_w32 (ix2 a b))
      (broadcastTo S512x4096 (shapeCast S512x1 q shapeCasts_S512x1_S512x1) broadcasts_S512x1_S512x4096 (ix2 a b)))
      (x (ix2 a b)) (FloatOps.ofBits .f32 0x00000000#32) = _
  rw [iota_single_apply, repeat_apply, shapeCast_self]

/-- The same at any index `j` of the block, through its two coordinates. -/
theorem stored_at (q : Vec F S512x1 .i32) (x : Vec F S512x4096 .f32) (j : S512x4096.Idx) :
    k0_pay1 q x j
      = Scalar.select (IntOp.cmpi .slt (BitVec.ofNat 32 (j 1).val) (q (ix2 (j 0) (0 : Fin 1)))) (x j)
          (FloatOps.ofBits .f32 0x00000000#32) := by
  have e : j = ix2 (j 0) (j 1) := eq_ix2 j
  refine (congrArg (k0_pay1 q x) e).trans ((stored_apply q x (j 0) (j 1)).trans ?_)
  exact congrArg (fun v => Scalar.select (IntOp.cmpi .slt (BitVec.ofNat 32 (j 1).val) (q (ix2 (j 0) (0 : Fin 1)))) v
    (FloatOps.ofBits .f32 0x00000000#32)) (congrArg x e.symm)

end Cert.KernelIdeal.Body

end
-- ==== Proof.KernelMasked.lean ====
/-
  The kernel computes the specification.

  The grid has 32 points; point `t` works on rows `512·k … 512·k + 511` of the array, where `k` is the block number the
  index maps give it (the same for the array's window, the column of row words and the output, with column block 0
  throughout). At that point the body stores, at entry `(a, b)` of its block, the array's entry `(512·k + a, b)` if
  `b` is below the CLAMPED word of row `512·k + a`, and zero otherwise. Because `0 ≤ b < 4096`, clamping the word into
  `[0, 4096]` does not change the comparison, so this is entry `(512·k + a, b)` of the row-masked copy of the
  arguments: each point writes back its block of `maskedRows`. The 32 blocks tile the 16384 rows (row `r` lies in the
  block numbered `r / 512`), so after the run the whole output array is `maskedRows` of the arguments.
-/
import proofs.«103761_j46308337386065_2_alg».proof.Proof.Gen.KernelIdeal.Value
import proofs.«103761_j46308337386065_2_alg».proof.Proof.MaskSpec
import proofs.«103761_j46308337386065_2_alg».proof.Proof.ClipLaw
import proofs.«103761_j46308337386065_2_alg».proof.Proof.PosClip
import proofs.«103761_j46308337386065_2_alg».proof.Proof.BlockValue

noncomputable section

namespace Cert.KernelIdeal.Masked

open Cert.KernelIdeal Cert.KernelIdeal.Gen Cert.KernelIdeal.Value Idealize.ShloMosaic Idealize.ShloMosaic.TcCoe Idealize.SL.Sem
open Idealize.ShloMosaic.ValueIdx Cert.MaskSpec
open Idealize.ShloMosaic.Pipeline (Dat)

variable {F : FTy → Type} [FloatOps F]
variable (m : (ℓ : Loc nD τ sig) → Buf (Elt F) ℓ) (ρ : Dev nD → PrngReg)

/-- The body's loads and its store start at the origin of their buffers. -/
theorem origin : (![0, 0] : Fin 2 → Nat) = fun _ => 0 := funext fun a => by fin_cases a <;> rfl

/-- The three index maps at every grid point: one row-block number for all three windows, below 32, and column
    block 0 (decided over the 32 points). -/
theorem block_numbers : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 31 :=
  (by decide +kernel : ∀ t : Fin grid0.N, _)

/-- Every row-block number below 32 is some grid point's. -/
theorem block_onto : ∀ k : Fin 32, ∃ t : Fin cfg0.N, win0_2.index t = ![k.val, 0] :=
  (by decide +kernel : ∀ k : Fin 32, ∃ t : Fin grid0.N, win0_2.index t = ![k.val, 0])

/-- WHAT POINT `t` WRITES BACK is its block of the row-masked copy of the arguments. -/
theorem flushed_masked (c : Dev nD) (t : Fin cfg0.N) :
    (dats m 0 c).flushed 2 t = ((cfg0.win 2).blk t).view.read (Elt F)
      (maskedRows (m ((c : Thread nD τ).loc main_arg0) : S16384x4096.Idx → Elt F .f32)
        (m ((c : Thread nD τ).loc main_arg1) : S16384.Idx → BitVec 32)) := by
  rw [Value.flushed2]
  unfold out0_2
  rw [View.canon_unit_zero origin]
  simp only [View.ld_unit_zero (S := S512x1) origin, View.ld_unit_zero (S := S512x4096) origin]
  obtain ⟨e0, e1, e2, e3, e4, e5⟩ := block_numbers t
  funext j
  have hj0 : (j 0).val < 512 := (j 0).isLt
  have hj1 : (j 1).val < 4096 := (j 1).isLt
  -- the array's row and column under entry `j` of the block
  obtain ⟨r, hr⟩ : ∃ r : Fin 16384, r.val = win0_2.index t (0 : Fin 2) * 512 + (j 0).val := ⟨⟨_, by omega⟩, rfl⟩
  obtain ⟨b, hb⟩ : ∃ b : Fin 4096, b.val = (j 1).val := ⟨⟨_, hj1⟩, rfl⟩
  have hout : ((cfg0.win 2).blk t).view.emb j = ix2 r b := by
    funext d; apply Fin.ext
    match d with
    | ⟨0, _⟩ => show win0_2.index t (0 : Fin 2) * 512 + 1 * (j 0).val = r.val; omega
    | ⟨1, _⟩ => show win0_2.index t (1 : Fin 2) * 4096 + 1 * (j 1).val = b.val; omega
  have hin : ((cfg0.win 0).blk t).view.emb j = ix2 r b := by
    funext d; apply Fin.ext
    match d with
    | ⟨0, _⟩ => show win0_0.index t (0 : Fin 2) * 512 + 1 * (j 0).val = r.val; omega
    | ⟨1, _⟩ => show win0_0.index t (1 : Fin 2) * 4096 + 1 * (j 1).val = b.val; omega
  have hcol : ((cfg0.win 1).blk t).view.emb (ix2 (j 0) (0 : Fin 1)) = ix2 r (0 : Fin 1) := by
    funext d; apply Fin.ext
    match d with
    | ⟨0, _⟩ => show win0_1.index t (0 : Fin 2) * 512 + 1 * (j 0).val = r.val; omega
    | ⟨1, _⟩ => show win0_1.index t (1 : Fin 2) * 1 + 1 * 0 = 0; omega
  -- the two loaded blocks at the entries the stored value reads
  have hx : iblk m c 0 t j = (m ((c : Thread nD τ).loc main_arg0) : S16384x4096.Idx → Elt F .f32) (ix2 r b) := by
    show V m c main_arg0 (((cfg0.win 0).blk t).view.emb j) = _
    rw [V_main_arg0, hin]
  have hq : iblk m c 1 t (ix2 (j 0) (0 : Fin 1))
      = IntOp.minsi 4096#32 (IntOp.maxsi 0#32 ((m ((c : Thread nD τ).loc main_arg1) : S16384.Idx → BitVec 32) (ix1 r))) := by
    show V m c main_v1 (((cfg0.win 1).blk t).view.emb (ix2 (j 0) (0 : Fin 1))) = _
    rw [hcol]
    exact Clamp.column_apply m c r
  show k0_pay1 (iblk m c 1 t) (iblk m c 0 t) j = maskedRows _ _ (((cfg0.win 2).blk t).view.emb j)
  refine (Body.stored_at (iblk m c 1 t) (iblk m c 0 t) j).trans ?_
  rw [hx, hq, hout, maskedRows_ix2, ClipLaw.slt_clip (j 1).val hj1, hb]

/-- An index of the array is in point `t`'s block iff each coordinate is in the block's range on its axis. -/
theorem mem_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v2).slice (win0_2.rect t)).set ↔ _
  rw [View.set_slice_whole, Rect.mem_set_unit]
  exact Iff.rfl

/-- The blocks tile the array: row `r` is in the block numbered `r / 512`, every column in column block 0. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE OUTPUT ARRAY after the run is the row-masked copy of the arguments. -/
theorem final_masked (c : Dev nD) : (dats m 0 c).arrAt 2 cfg0.N
    = maskedRows (m ((c : Thread nD τ).loc main_arg0) : S16384x4096.Idx → Elt F .f32)
        (m ((c : Thread nD τ).loc main_arg1) : S16384.Idx → BitVec 32) :=
  (dats m 0 c).arrAt_eq_of_cover 2 _ (fun t _ => flushed_masked m c t) covered

/-- The kernel's run, read: the result array at the row-masked copy of the arguments, the arguments unchanged. -/
theorem run : θ_run defs (onTc (τ := τ) (main (F := F))) ⟨m, fun _ => 0, ρ⟩ fun r => ∀ c : Dev nD,
      r.2.mem ((c : Thread nD τ).loc main_v2)
        = maskedRows (m ((c : Thread nD τ).loc main_arg0) : S16384x4096.Idx → Elt F .f32)
            (m ((c : Thread nD τ).loc main_arg1) : S16384.Idx → BitVec 32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_masked m c), (h c).2⟩) (Value.run_blocks m ρ)

end Cert.KernelIdeal.Masked

end
-- ==== Proof.lean ====
/-
  The certificate of the row-mask kernel against its reference.

  BOTH PROGRAMS take a 16384 × 4096 float array `x` and one signed 32-bit word `p r` per row, and return the array
  whose entry `(r, j)` is `x (r, j)` where the column number `j` is below the row's word and the float zero
  elsewhere — each row keeps a prefix and is zero after it (`MaskSpec.maskedRows`).

  THE REFERENCE compares the column numbers with `p r` itself. THE KERNEL first clamps `p r` into `[0, 4096]`, lays
  the clamped words out as a column, and then, in 32 blocks of 512 rows, compares the column numbers with the clamped
  word. The two agree because a column number satisfies `0 ≤ j < 4096`: for such `j`, `j < p` holds exactly when
  `j < min 4096 (max 0 p)` (`ClipLaw.slt_clip`; all comparisons signed). No float arithmetic is involved — an entry
  is copied or replaced by the zero pattern — so the equality holds entry by entry whatever the float values are, and
  the finiteness precondition is never used.

  The parts: `RefMasked` (the reference's result is `maskedRows` of its arguments), `PosClip` (the column of clamped
  words the kernel's region finds), `BlockValue` (what the body stores at one entry of a block), `KernelMasked` (each
  grid point writes its block of `maskedRows`, the blocks tile the array, hence the kernel's result array is
  `maskedRows` of its arguments). The three frame claims are the programs' runs with the value forgotten; the
  idealization rewrote nothing, so its claim is trivial.
-/
import proofs.«103761_j46308337386065_2_alg».proof.Defs
import proofs.«103761_j46308337386065_2_alg».proof.Proof.Gen.Kernel
import proofs.«103761_j46308337386065_2_alg».proof.Proof.Gen.Kernel.Skeleton
import proofs.«103761_j46308337386065_2_alg».proof.Proof.Gen.Kernel.Launch
import proofs.«103761_j46308337386065_2_alg».proof.Proof.Gen.Kernel.Points
import proofs.«103761_j46308337386065_2_alg».proof.Proof.Gen.Kernel.Frame
import proofs.«103761_j46308337386065_2_alg».proof.Proof.Gen.KernelIdeal
import proofs.«103761_j46308337386065_2_alg».proof.Proof.Gen.KernelIdeal.Skeleton
import proofs.«103761_j46308337386065_2_alg».proof.Proof.Gen.KernelIdeal.Launch
import proofs.«103761_j46308337386065_2_alg».proof.Proof.Gen.KernelIdeal.Points
import proofs.«103761_j46308337386065_2_alg».proof.Proof.Gen.KernelIdeal.Frame
import proofs.«103761_j46308337386065_2_alg».proof.Proof.Gen.ReferenceIdeal
import proofs.«103761_j46308337386065_2_alg».proof.Proof.Gen.Pre_finite_inputs
import proofs.«103761_j46308337386065_2_alg».proof.Proof.Gen.KernelIdeal.Value
import proofs.«103761_j46308337386065_2_alg».proof.Proof.Gen.ReferenceIdeal.Run
import proofs.«103761_j46308337386065_2_alg».proof.Proof.Gen.ReferenceIdeal.Read
import proofs.«103761_j46308337386065_2_alg».proof.Proof.MaskSpec
import proofs.«103761_j46308337386065_2_alg».proof.Proof.RefMasked
import proofs.«103761_j46308337386065_2_alg».proof.Proof.KernelMasked
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel and the reference both end with the row-masked copy of the
    arguments in their result arrays: the kernel by its blocks (`Masked.run`), the reference operation by operation
    (`RefValue.ref_is_masked`). -/
theorem algebraic : Cert.algebraic_KernelIdeal_ReferenceIdeal := by
  intro m ρ m' ρ' _ hagree
  refine ⟨fun c => Cert.MaskSpec.maskedRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Masked.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.ref_is_masked,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
